-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x1024 : Shape := ⟨3, ![1024, 32, 1024]⟩
abbrev S32x512x1024 : Shape := ⟨3, ![32, 512, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S1024x32x1024 : S_.BroadcastsInDim S1024x32x1024 (![] : Fin 0 → Fin S1024x32x1024.rank)
  reducesTo_S1024x32x1024_S_d0_1_2 : S1024x32x1024.ReducesTo [0, 1, 2] S_
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1024x32x1024 .f32) (main_arg1 : FVec F S32x512x1024 .f32) (main_arg2 : FVec F S32x1024 .f32) (main_arg3 : FVec F S1024x1024 .f32) (main_arg4 : FVec F S1024 .f32) (main_arg5 : FVec F S1024x1024 .f32) (main_arg6 : FVec F S1024 .f32) : IVec S_ 1 :=
  let main_v0 : FVec F S1024x32x1024 .f32 := Host.absf main_arg0
  let main_cst : FVec F S_ .f32 := constant S_ .f32 0x7F800000#32
  let main_v1 : FVec F S1024x32x1024 .f32 := broadcastInDim S1024x32x1024 ![] bcast_S_S1024x32x1024 main_cst
  let main_v2 : IVec S1024x32x1024 1 := cmpf .olt main_v0 main_v1
  let main_c : IVec S_ 1 := constantI S_ 1 1#1
  let main_v3 : IVec S_ 1 := (fun x v => Host.reduce IntOp.andi x v reducesTo_S1024x32x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S1024x32x1024 : Shape := ⟨3, ![1024, 32, 1024]⟩
abbrev S32x512x1024 : Shape := ⟨3, ![32, 512, 1024]⟩
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S32768x1024 : Shape := ⟨2, ![32768, 1024]⟩
abbrev S1024x2048 : Shape := ⟨2, ![1024, 2048]⟩
abbrev S2048 : Shape := ⟨1, ![2048]⟩
abbrev S1x2048 : Shape := ⟨2, ![1, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S1024x32x1024, .f32⟩
  | .hbm, ⟨1, _⟩ => ⟨S32x512x1024, .f32⟩
  | .hbm, ⟨2, _⟩ => ⟨S32x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32x1024x1024, .f32⟩
  | .hbm, ⟨8, _⟩ => ⟨S32768x1024, .f32⟩
  | .hbm, ⟨9, _⟩ => ⟨S1024x1024, .f32⟩
  | .hbm, ⟨10, _⟩ => ⟨S1024x1024, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S32768x1024, .bf16⟩
  | .hbm, ⟨16, _⟩ => ⟨S32768x1024, .bf16⟩
  | .hbm, ⟨17, _⟩ => ⟨S32x1024x1024, .bf16⟩
  | .hbm, ⟨18, _⟩ => ⟨S32x1024x1024, .bf16⟩
  | .hbm, ⟨19, _⟩ => ⟨S32x512x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x512x1024, .f32⟩
  | .local _ .vmem, ⟨15, _⟩ => ⟨S1x512x1024, .f32⟩
  | _, _ => ⟨S1024x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S1024x32x1024_S32x1024x1024_1_0_2 : S1024x32x1024.Transposes [1, 0, 2] S32x1024x1024
  shapeCasts_S32x1024x1024_S32768x1024 : S32x1024x1024.ShapeCasts S32768x1024
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  concatenates_S1024_S1024_S2048_d0 : Shape.Concatenates [S1024, S1024] S2048 0
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x1024 : S1024x2048.Slices ![0, 0] S1024x1024
  packedbf16_S1024x1024_S1024x1024_0_0 : (Rect.unit (s := S1024x1024) ![0, 0] S1024x1024.size inb_S1024x1024_S1024x1024_0_0).PackedRows (EltTy.packing .bf16)
  slices_S1024x2048_o0_1024_S1024x1024 : S1024x2048.Slices ![0, 1024] S1024x1024
  shapeCasts_S32768x1024_S32x1024x1024 : S32768x1024.ShapeCasts S32x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S1024x1024_S1024x2048_S1024x2048_1_0_0_1_n_n_wf : DotDims.WF S1024x1024 S1024x2048 S1024x2048 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .bf16 = 32 ∨ (Rect.block (s := S32768x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .bf16 = 32 ∨ (Rect.block (s := S32768x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x512x1024.size a
  hwx1_0 : ∀ i : grid1.Coords, EltTy.bits .f32 = 32 ∨ (Rect.block (s := S32x512x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S32x1024x1024.size a
  hwx1_1 : ∀ i : grid1.Coords, EltTy.bits .bf16 = 32 ∨ (Rect.block (s := S32x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S32x1024x1024.size a
  hwx1_2 : ∀ i : grid1.Coords, EltTy.bits .bf16 = 32 ∨ (Rect.block (s := S32x1024x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S32x512x1024.size a
  hwx1_3 : ∀ i : grid1.Coords, EltTy.bits .f32 = 32 ∨ (Rect.block (s := S32x512x1024) S1x512x1024.size (cc1_transform_3 i) (hinb1_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x32x1024 : Shape := ⟨3, ![1024, 32, 1024]⟩
abbrev S32x512x1024 : Shape := ⟨3, ![32, 512, 1024]⟩
abbrev S32x1024 : Shape := ⟨2, ![32, 1024]⟩
abbrev S1024x1024 : Shape := ⟨2, ![1024, 1024]⟩
abbrev S1024 : Shape := ⟨1, ![1024]⟩
abbrev S32x1024x1024 : Shape := ⟨3, ![32, 1024, 1024]⟩
abbrev S1x1x1024 : Shape := ⟨3, ![1, 1, 1024]⟩
abbrev S_ : Shape := ⟨0, ![]⟩
abbrev S32x512 : Shape := ⟨2, ![32, 512]⟩
abbrev S32x512x1 : Shape := ⟨3, ![32, 512, 1]⟩

abbrev nBuf : Space → Nat
  | .hbm => 40
  | .vmem => 0
  | .smem => 0
  | _ => 0

abbrev bufTy : (tb : Table) → Fin (tcTables nBuf tb) → BufTy
  | .hbm, ⟨0, _⟩ => ⟨S1024x32x1024, .f32⟩
  | .hbm, ⟨1, _⟩ => ⟨S32x512x1024, .f32⟩
  | .hbm, ⟨2, _⟩ => ⟨S32x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32x1024x1024, .f32⟩
  | .hbm, ⟨8, _⟩ => ⟨S32x1024x1024, .f32⟩
  | .hbm, ⟨9, _⟩ => ⟨S1x1x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S1x1x1024, .f32⟩
  | .hbm, ⟨14, _⟩ => ⟨S32x1024x1024, .f32⟩
  | .hbm, ⟨15, _⟩ => ⟨S32x1024x1024, .f32⟩
  | .hbm, ⟨16, _⟩ => ⟨S32x512x1024, .f32⟩
  | .hbm, ⟨17, _⟩ => ⟨S_, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x512x1, .f32⟩
  | .hbm, ⟨23, _⟩ => ⟨S32x512x1024, .f32⟩
  | .hbm, ⟨24, _⟩ => ⟨S32x512x1024, .f32⟩
  | .hbm, ⟨25, _⟩ => ⟨S32x512x1024, .f32⟩
  | .hbm, ⟨26, _⟩ => ⟨S_, .f32⟩
  | .hbm, ⟨27, _⟩ => ⟨S32x512, .f32⟩
  | .hbm, ⟨28, _⟩ => ⟨S32x512x1, .f32⟩
  | .hbm, ⟨29, _⟩ => ⟨S32x512x1024, .f32⟩
  | .hbm, ⟨30, _⟩ => ⟨S32x512x1024, .f32⟩
  | .hbm, ⟨31, _⟩ => ⟨S32x512x1024, .f32⟩
  | .hbm, ⟨32, _⟩ => ⟨S32x512x1024, .f32⟩
  | .hbm, ⟨33, _⟩ => ⟨S32x512x1024, .f32⟩
  | .hbm, ⟨34, _⟩ => ⟨S_, .f32⟩
  | .hbm, ⟨35, _⟩ => ⟨S32x512x1024, .f32⟩
  | .hbm, ⟨36, _⟩ => ⟨S32x512x1024, .f32⟩
  | .hbm, ⟨37, _⟩ => ⟨S_, .f32⟩
  | .hbm, ⟨38, _⟩ => ⟨S32x512x1024, .f32⟩
  | .hbm, ⟨39, _⟩ => ⟨S32x512x1024, .f32⟩
  | _, _ => ⟨S1024x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  transposes_S1024x32x1024_S32x1024x1024_1_0_2 : S1024x32x1024.Transposes [1, 0, 2] S32x1024x1024
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  reducesTo_S32x512x1024_S32x512_d2 : S32x512x1024.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x1024_0_1_2 : S32x512x1.BroadcastsInDim S32x512x1024 (![0, 1, 2] : Fin 3 → Fin S32x512x1024.rank)
  bcast_S_S32x512x1024 : S_.BroadcastsInDim S32x512x1024 (![] : Fin 0 → Fin S32x512x1024.rank)
  dot_S32x1024x1024_S1024x1024_S32x1024x1024_2_1_01_0_n_n_wf : DotDims.WF S32x1024x1024 S1024x1024 S32x1024x1024 [2] [1] [0, 1] [0] [] []
  dot_S32x512x1024_S32x1024x1024_S32x512x1024_2_2_1_1_0_0_wf : DotDims.WF S32x512x1024 S32x1024x1024 S32x512x1024 [2] [2] [1] [1] [0] [0]
  dot_S32x512x1024_S32x1024x1024_S32x512x1024_2_1_1_2_0_0_wf : DotDims.WF S32x512x1024 S32x1024x1024 S32x512x1024 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf

class Facts : Prop extends Facts₀ where

variable [Facts]
-- ==== Proof.KernelRun.lean ====
/-
  The idealized kernel program's run with its RESULT named. The program is two pipelined regions among host operations;
  the contents of every buffer at each boundary are a fold through the program: the launch memory, the host operations
  before the first region applied to it, the first region's arrays replaced by what its write-backs leave, the host
  operations between the regions, the second region's arrays replaced likewise. Every weakly fair execution terminates
  without a fault, and in its final state the result buffer holds what that fold has at the result's reference, while the
  seven argument arrays are as launched. The result is then the second region's output array after its last grid point.
-/
import proofs.«105669_j10969346474266_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_fold : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result's reference is the second region's output window's array, so the last boundary holds there what that
    region's write-backs leave after its last grid point. -/
theorem result_arr (c : Dev nD) :
    W4 m ρ c (Proc.devRef .tc main_v11) = (dat1 (V3 m ρ) c).arrAt 3 cfg1.N := W4_arr m ρ c 3

end Cert.KernelIdeal.KRun

end
-- ==== Proof.Spec.lean ====
/-
  The mathematics both programs compute, as functions of the argument arrays, one element at a time, on the extended reals.

  A linear projection of the hidden states, read batch-major: at batch b, position s and feature k,
      proj hid W bias b s k = (∑ h, hid[s, b, h] · W[k, h]) + bias[k].
  Scaled-free attention of the queries x against keys K and values V of one batch: the scores of query t are
      score x K b t s = ∑ h, x[b, t, h] · K[b, s, h],
  a row of scores is turned into weights by the softmax written the stable way — subtract the row's maximum (the fold of
  max from −∞, taken once more against −∞), exponentiate, divide by the sum of the exponentials —, the weights average the
  values, and the logistic function is applied:
      outAt x K V b t h = logistic (∑ s, softmax(score x K b t) s · V[b, s, h]).
  −∞ is kept as the f32 pattern both programs write; it is never evaluated.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- −∞, as the f32 pattern. -/
abbrev negInf : EReal := Ideal.ofBits .f32 0xFF800000#32

/-- The projection at batch `b`, position `s`, output feature `k`: the hidden state of (s, b) against row `k` of the weight,
    plus the bias. -/
def proj (hid : (⟨3, ![1024, 32, 1024]⟩ : Shape).Idx → EReal) (W : (⟨2, ![1024, 1024]⟩ : Shape).Idx → EReal)
    (bias : (⟨1, ![1024]⟩ : Shape).Idx → EReal) (b : Fin 32) (s k : Fin 1024) : EReal :=
  (∑ h : Fin 1024, hid (ix3 s b h) * W (ix2 k h)) + bias (ix1 k)

/-- The projection as an array of shape [32, 1024, 1024]. -/
def projArr (hid : (⟨3, ![1024, 32, 1024]⟩ : Shape).Idx → EReal) (W : (⟨2, ![1024, 1024]⟩ : Shape).Idx → EReal)
    (bias : (⟨1, ![1024]⟩ : Shape).Idx → EReal) : (⟨3, ![32, 1024, 1024]⟩ : Shape).Idx → EReal :=
  fun i => proj hid W bias ⟨(i 0).val, (i 0).isLt⟩ ⟨(i 1).val, (i 1).isLt⟩ ⟨(i 2).val, (i 2).isLt⟩

theorem projArr_ix3 (hid : (⟨3, ![1024, 32, 1024]⟩ : Shape).Idx → EReal) (W : (⟨2, ![1024, 1024]⟩ : Shape).Idx → EReal)
    (bias : (⟨1, ![1024]⟩ : Shape).Idx → EReal) (b : Fin 32) (s k : Fin 1024) :
    projArr hid W bias (ix3 b s k) = proj hid W bias b s k := rfl

/-- The score of query `t` against key `s` in batch `b`. -/
def score (x : (⟨3, ![32, 512, 1024]⟩ : Shape).Idx → EReal) (K : (⟨3, ![32, 1024, 1024]⟩ : Shape).Idx → EReal)
    (b : Fin 32) (t : Fin 512) (s : Fin 1024) : EReal :=
  ∑ h : Fin 1024, x (ix3 b t h) * K (ix3 b s h)

/-- A row's maximum, from −∞. -/
def rowMax (sc : Fin 1024 → EReal) : EReal :=
  max negInf ((Finset.univ : Finset (Fin 1024)).fold max negInf sc)

/-- The exponential of a score less the row's maximum. -/
def rowExp (sc : Fin 1024 → EReal) (s : Fin 1024) : EReal := Ideal.exp (sc s - rowMax sc)

/-- The softmax weight of key `s` in a row of scores. -/
def rowAttn (sc : Fin 1024 → EReal) (s : Fin 1024) : EReal :=
  Ideal.div (rowExp sc s) (∑ s' : Fin 1024, rowExp sc s')

/-- The result at batch `b`, query `t`, feature `h`. -/
def outAt (x : (⟨3, ![32, 512, 1024]⟩ : Shape).Idx → EReal) (K V : (⟨3, ![32, 1024, 1024]⟩ : Shape).Idx → EReal)
    (b : Fin 32) (t : Fin 512) (h : Fin 1024) : EReal :=
  Ideal.logistic (∑ s : Fin 1024, rowAttn (score x K b t) s * V (ix3 b s h))

/-- The result as an array of shape [32, 512, 1024]. -/
def outArr (x : (⟨3, ![32, 512, 1024]⟩ : Shape).Idx → EReal) (K V : (⟨3, ![32, 1024, 1024]⟩ : Shape).Idx → EReal) :
    (⟨3, ![32, 512, 1024]⟩ : Shape).Idx → EReal :=
  fun i => outAt x K V ⟨(i 0).val, (i 0).isLt⟩ ⟨(i 1).val, (i 1).isLt⟩ ⟨(i 2).val, (i 2).isLt⟩

theorem outArr_ix3 (x : (⟨3, ![32, 512, 1024]⟩ : Shape).Idx → EReal) (K V : (⟨3, ![32, 1024, 1024]⟩ : Shape).Idx → EReal)
    (b : Fin 32) (t : Fin 512) (h : Fin 1024) : outArr x K V (ix3 b t h) = outAt x K V b t h := rfl

/-- The whole computation: attention of `x` over the two projections of `hid`. -/
def result (hid : (⟨3, ![1024, 32, 1024]⟩ : Shape).Idx → EReal) (x : (⟨3, ![32, 512, 1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨3, ![32, 512, 1024]⟩ : Shape).Idx → EReal :=
  outArr x (projArr hid Wk bk) (projArr hid Wv bv)

/-- The f32 pattern of 1.0 is the real 1. -/
theorem ofBits_one_f32 : Ideal.ofBits .f32 0x3F800000#32 = 1 := IdealRules.sign_bit.ideal_onePat .f32

end Cert.Attn

end
-- ==== Proof.KOps.lean ====
/-
  The vector operations of the two kernel bodies, each read at one index on the extended reals.

  Matrix products into a zero accumulator are plain sums over the contracted axis: for the scores the contraction runs
  over the last axis of both operands (query row t against key row s), for the weighted values and for the projection over
  the last axis of the left operand and the first of the right. A reduction along a row is the fold of max from −∞, or the
  sum, over the row's 1024 entries. A column [512] viewed as [512, 1] and broadcast along the rows reads its entry t at
  every (t, s). The leading unit axis of a block is dropped or added without moving an element.
-/
import proofs.«105669_j10969346474266_1_alg».proof.Proof.Gen.KernelIdeal.Skeleton
import proofs.«105669_j10969346474266_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KOps

open Cert.KernelIdeal Cert.KernelIdeal.Gen Idealize.ShloMosaic Idealize.ShloMosaic.ValueIdx

/-! ## Matrix products -/

theorem nt_lhs0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem nt_lhs1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem nt_rhs0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem nt_rhs1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- Scores: query row `t` against key row `s`, summed over the 1024 features. -/
theorem matmul_nt_apply (a : FVec Ideal S512x1024 .bf16) (b : FVec Ideal S1024x1024 .bf16) (t : Fin 512) (s : Fin 1024) :
    matmul dot_S512x1024_S1024x1024_S512x1024_1_1_0_0_n_n none a b (constant S512x1024 .f32 0x00000000#32) (ix2 t s)
      = ∑ h : Fin 1024, a (ix2 t h) * b (ix2 s h) := by
  refine (Ideal.matmul_constant_zero_apply dot_S512x1024_S1024x1024_S512x1024_1_1_0_0_n_n none a b (ix2 t s)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 t s) ((contrEquiv1 dot_S512x1024_S1024x1024_S512x1024_1_1_0_0_n_n 1024 rfl rfl).symm k) = ix2 t k := funext fun ax => Fin.ext (by
    match ax with
    | ⟨0, _⟩ => exact nt_lhs0 _ _
    | ⟨1, _⟩ => exact (nt_lhs1 _ _).trans hk)
  have er : dot_S512x1024_S1024x1024_S512x1024_1_1_0_0_n_n.rhsIdx (ix2 t s) ((contrEquiv1 dot_S512x1024_S1024x1024_S512x1024_1_1_0_0_n_n 1024 rfl rfl).symm k) = ix2 s k := funext fun ax => Fin.ext (by
    match ax with
    | ⟨0, _⟩ => exact nt_rhs0 _ _
    | ⟨1, _⟩ => exact (nt_rhs1 _ _).trans hk)
  rw [el, er]

theorem nn_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem nn_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem nn_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem nn_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- Weighted values: row `t` of the weights against column `h` of the values, summed over the 1024 positions. -/
theorem matmul_nn_apply (a : FVec Ideal S512x1024 .bf16) (b : FVec Ideal S1024x1024 .bf16) (t : Fin 512) (h : Fin 1024) :
    matmul dot_S512x1024_S1024x1024_S512x1024_1_0_0_1_n_n none a b (constant S512x1024 .f32 0x00000000#32) (ix2 t h)
      = ∑ s : Fin 1024, a (ix2 t s) * b (ix2 s h) := by
  refine (Ideal.matmul_constant_zero_apply dot_S512x1024_S1024x1024_S512x1024_1_0_0_1_n_n none a b (ix2 t h)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 t h) ((contrEquiv1 dot_S512x1024_S1024x1024_S512x1024_1_0_0_1_n_n 1024 rfl rfl).symm k) = ix2 t k := funext fun ax => Fin.ext (by
    match ax with
    | ⟨0, _⟩ => exact nn_lhs0 _ _
    | ⟨1, _⟩ => exact (nn_lhs1 _ _).trans hk)
  have er : dot_S512x1024_S1024x1024_S512x1024_1_0_0_1_n_n.rhsIdx (ix2 t h) ((contrEquiv1 dot_S512x1024_S1024x1024_S512x1024_1_0_0_1_n_n 1024 rfl rfl).symm k) = ix2 k h := funext fun ax => Fin.ext (by
    match ax with
    | ⟨0, _⟩ => exact (nn_rhs0 _ _).trans hk
    | ⟨1, _⟩ => exact nn_rhs1 _ _)
  rw [el, er]

theorem pj_lhs0 (i : S1024x2048.Idx) (q : dot_S1024x1024_S1024x2048_S1024x2048_1_0_0_1_n_n.contr.Idx) : (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem pj_lhs1 (i : S1024x2048.Idx) (q : dot_S1024x1024_S1024x2048_S1024x2048_1_0_0_1_n_n.contr.Idx) : (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem pj_rhs1 (i : S1024x2048.Idx) (q : dot_S1024x1024_S1024x2048_S1024x2048_1_0_0_1_n_n.contr.Idx) : (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl
theorem pj_rhs0 (i : S1024x2048.Idx) (q : dot_S1024x1024_S1024x2048_S1024x2048_1_0_0_1_n_n.contr.Idx) : (dot_S1024x1024_S1024x2048_S1024x2048_1_0_0_1_n_n.rhsIdx i q 0).val = (q ⟨0, by decide⟩).val :=
  dot_S1024x1024_S1024x2048_S1024x2048_1_0_0_1_n_n.rhsIdx_val_of_single rfl i q

/-- The projection: row `r` of the hidden block against column `j` of the joined weights, summed over the 1024 features. -/
theorem matmul_proj_apply (a : FVec Ideal S1024x1024 .bf16) (b : FVec Ideal S1024x2048 .bf16) (r : Fin 1024) (j : Fin 2048) :
    matmul dot_S1024x1024_S1024x2048_S1024x2048_1_0_0_1_n_n none a b (constant S1024x2048 .f32 0x00000000#32) (ix2 r j)
      = ∑ h : Fin 1024, a (ix2 r h) * b (ix2 h j) := by
  refine (Ideal.matmul_constant_zero_apply dot_S1024x1024_S1024x2048_S1024x2048_1_0_0_1_n_n none a b (ix2 r j)).trans ?_
  rw [← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r j) ((contrEquiv1 dot_S1024x1024_S1024x2048_S1024x2048_1_0_0_1_n_n 1024 rfl rfl).symm k) = ix2 r k := funext fun ax => Fin.ext (by
    match ax with
    | ⟨0, _⟩ => exact pj_lhs0 _ _
    | ⟨1, _⟩ => exact (pj_lhs1 _ _).trans hk)
  have er : dot_S1024x1024_S1024x2048_S1024x2048_1_0_0_1_n_n.rhsIdx (ix2 r j) ((contrEquiv1 dot_S1024x1024_S1024x2048_S1024x2048_1_0_0_1_n_n 1024 rfl rfl).symm k) = ix2 k j := funext fun ax => Fin.ext (by
    match ax with
    | ⟨0, _⟩ => exact (pj_rhs0 _ _).trans hk
    | ⟨1, _⟩ => exact pj_rhs1 _ _)
  rw [el, er]

/-! ## Reductions along a row -/

/-- Row `t` with column `k` put back is (t, k). -/
theorem lift_row (t : Fin 512) (k : Fin (S512x1024.size 1)) :
    reduces_S512x1024_S512.lift (ix1 t) k = ix2 t (⟨k.val, k.isLt⟩ : Fin 1024) := by
  funext c; apply Fin.ext
  fin_cases c <;> rfl

/-- A row's maximum from −∞: the fold of max over the row's entries. -/
theorem rowmax_apply (v : FVec Ideal S512x1024 .f32) (t : Fin 512) :
    multiReduction .maximumf [1] S512 v 0xFF800000#32 reduces_S512x1024_S512 (.inl rfl) rfl (ix1 t)
      = (Finset.univ : Finset (Fin 1024)).fold max Cert.Attn.negInf (fun s => v (ix2 t s)) := by
  refine (Ideal.multiReduction_maximumf_single v 0xFF800000#32 reduces_S512x1024_S512 (.inl rfl) rfl (ix1 t)).trans ?_
  have hf : (v ∘ reduces_S512x1024_S512.lift (ix1 t)) = fun k : Fin 1024 => v (ix2 t k) :=
    funext fun k => congrArg v (lift_row t k)
  exact congrArg (fun f => Finset.fold max (Ideal.ofBits .f32 0xFF800000#32) f (Finset.univ : Finset (Fin 1024))) hf

/-- A row's sum. -/
theorem rowsum_apply (v : FVec Ideal S512x1024 .f32) (t : Fin 512) :
    multiReduction .add [1] S512 v 0x00000000#32 reduces_S512x1024_S512 (.inl rfl) rfl (ix1 t)
      = ∑ s : Fin 1024, v (ix2 t s) := by
  refine (Ideal.multiReduction_add_single v 0x00000000#32 reduces_S512x1024_S512 (.inl rfl) rfl (ix1 t)).trans ?_
  exact Finset.sum_congr rfl fun k _ => congrArg v (lift_row t k)

/-! ## Layout -/

/-- A column of 512 entries, viewed [512, 1] and broadcast along the rows, reads entry `t` at every (t, s). -/
theorem column_apply (v : FVec Ideal S512 .f32) (t : Fin 512) (s : Fin 1024) :
    broadcastTo S512x1024 (shapeCast S512x1 v shapeCasts_S512_S512x1) broadcasts_S512x1_S512x1024 (ix2 t s) = v (ix1 t) := by
  refine (broadcastTo_apply _ broadcasts_S512x1_S512x1024 (ix2 t s) (ix2 t (0 : Fin 1)) fun ax => ?_).trans ?_
  · match ax with
    | ⟨0, _⟩ => rfl
    | ⟨1, _⟩ => rfl
  · refine shapeCast_apply v shapeCasts_S512_S512x1 _ (ix1 t) ?_
    rw [Shape.rowMajor_val_one, Shape.rowMajor_val_two]
    show t.val = t.val * 1 + 0
    omega

end Cert.KernelIdeal.KOps

end
-- ==== Proof.AttnBody.lean ====
/-
  The attention kernel's body, read one element at a time on the extended reals.

  The body takes one batch's query block x0 [1, 512, 1024] and its key and value blocks x1, x2 [1, 1024, 1024]; with the
  leading unit axis dropped it forms the scores x0 · x1ᵀ, turns every row into softmax weights (row maximum from −∞,
  exponential of the difference, division by the row's sum), multiplies the weights by x2 and applies the logistic
  function. So the stored block at (0, t, h) is
      logistic (∑ s, softmax (fun s' => ∑ h', x0[0,t,h'] · x1[0,s',h']) s · x2[0,s,h]).
  When the three blocks are batch p of three arrays, that is the whole computation's element (p, t, h).
-/
import proofs.«105669_j10969346474266_1_alg».proof.Proof.KOps

noncomputable section

open scoped BigOperators

namespace Cert.KernelIdeal.AttnBody

open Cert.KernelIdeal Cert.KernelIdeal.Gen Cert.KernelIdeal.KOps Idealize.ShloMosaic Idealize.ShloMosaic.ValueIdx

/-! ## The softmax of a score matrix, as the body spells it -/

/-- The row maxima: the lane reduction from −∞, taken once more against −∞. -/
def rowMaxV (sc : FVec Ideal S512x1024 .f32) : FVec Ideal S512 .f32 :=
  maximumf (broadcast S512 (Scalar.ofBits .f32 0xFF800000#32))
    (multiReduction .maximumf [1] S512 sc 0xFF800000#32 reduces_S512x1024_S512 (.inl rfl) rfl)

/-- The exponentials of the scores less their row's maximum. -/
def expV (sc : FVec Ideal S512x1024 .f32) : FVec Ideal S512x1024 .f32 :=
  exp (subf sc (broadcastTo S512x1024 (shapeCast S512x1 (rowMaxV sc) shapeCasts_S512_S512x1) broadcasts_S512x1_S512x1024))

/-- The softmax weights: the exponentials over their row's sum. -/
def softmaxV (sc : FVec Ideal S512x1024 .f32) : FVec Ideal S512x1024 .f32 :=
  divf (expV sc) (broadcastTo S512x1024 (shapeCast S512x1
    (multiReduction .add [1] S512 (expV sc) 0x00000000#32 reduces_S512x1024_S512 (.inl rfl) rfl) shapeCasts_S512_S512x1) broadcasts_S512x1_S512x1024)

theorem rowMaxV_apply (sc : FVec Ideal S512x1024 .f32) (t : Fin 512) :
    rowMaxV sc (ix1 t) = Cert.Attn.rowMax (fun s => sc (ix2 t s)) := by
  unfold rowMaxV Cert.Attn.rowMax
  show max (Ideal.ofBits .f32 0xFF800000#32) (multiReduction .maximumf [1] S512 sc 0xFF800000#32 reduces_S512x1024_S512 (.inl rfl) rfl (ix1 t)) = _
  rw [rowmax_apply]

theorem expV_apply (sc : FVec Ideal S512x1024 .f32) (t : Fin 512) (s : Fin 1024) :
    expV sc (ix2 t s) = Cert.Attn.rowExp (fun s' => sc (ix2 t s')) s := by
  unfold expV Cert.Attn.rowExp
  show Ideal.exp (sc (ix2 t s) - broadcastTo S512x1024 (shapeCast S512x1 (rowMaxV sc) shapeCasts_S512_S512x1) broadcasts_S512x1_S512x1024 (ix2 t s)) = _
  rw [column_apply, rowMaxV_apply]

theorem softmaxV_apply (sc : FVec Ideal S512x1024 .f32) (t : Fin 512) (s : Fin 1024) :
    softmaxV sc (ix2 t s) = Cert.Attn.rowAttn (fun s' => sc (ix2 t s')) s := by
  unfold softmaxV Cert.Attn.rowAttn
  show Ideal.div (expV sc (ix2 t s)) (broadcastTo S512x1024 (shapeCast S512x1
    (multiReduction .add [1] S512 (expV sc) 0x00000000#32 reduces_S512x1024_S512 (.inl rfl) rfl) shapeCasts_S512_S512x1) broadcasts_S512x1_S512x1024 (ix2 t s)) = _
  rw [column_apply, rowsum_apply, expV_apply]
  exact congrArg (Ideal.div _) (Finset.sum_congr rfl fun s' _ => expV_apply sc t s')

/-! ## The body's stored value -/

/-- The stored value is the logistic of the weights times the values, the weights the softmax of the scores. -/
theorem pay_eq (x0 : FVec Ideal S1x512x1024 .f32) (x1 x2 : FVec Ideal S1x1024x1024 .bf16) :
    k1_pay1 (F := Ideal) x0 x1 x2 = shapeCast S1x512x1024 (logistic (matmul dot_S512x1024_S1024x1024_S512x1024_1_0_0_1_n_n none
      (truncf .bf16 (softmaxV (matmul dot_S512x1024_S1024x1024_S512x1024_1_1_0_0_n_n none
        (truncf .bf16 (shapeCast S512x1024 x0 shapeCasts_S1x512x1024_S512x1024) bitsLt_bf16_f32)
        (shapeCast S1024x1024 x1 shapeCasts_S1x1024x1024_S1024x1024) (constant S512x1024 .f32 0x00000000#32))) bitsLt_bf16_f32)
      (shapeCast S1024x1024 x2 shapeCasts_S1x1024x1024_S1024x1024) (constant S512x1024 .f32 0x00000000#32))) shapeCasts_S512x1024_S1x512x1024 := rfl

/-- The stored block at (0, t, h), from the three loaded blocks. -/
theorem pay_apply (x0 : FVec Ideal S1x512x1024 .f32) (x1 x2 : FVec Ideal S1x1024x1024 .bf16) (t : Fin 512) (h : Fin 1024) :
    (k1_pay1 (F := Ideal) x0 x1 x2 (ix3 (0 : Fin 1) t h) : EReal)
      = Ideal.logistic (∑ s : Fin 1024, Cert.Attn.rowAttn
          (fun s' => ∑ h' : Fin 1024, x0 (ix3 (0 : Fin 1) t h') * x1 (ix3 (0 : Fin 1) s' h')) s * x2 (ix3 (0 : Fin 1) s h)) := by
  rw [pay_eq, shapeCast_ab_1ab_apply]
  show Ideal.logistic (matmul (F := Ideal) (φ₁ := .bf16) (φ₂ := .bf16) dot_S512x1024_S1024x1024_S512x1024_1_0_0_1_n_n none _ _ (constant S512x1024 .f32 0x00000000#32) (ix2 t h)) = _
  rw [matmul_nn_apply]
  refine congrArg Ideal.logistic (Finset.sum_congr rfl fun s _ => ?_)
  rw [shapeCast_1ab_ab_apply]
  refine congrArg (· * x2 (ix3 (0 : Fin 1) s h)) ?_
  show softmaxV _ (ix2 t s) = _
  rw [softmaxV_apply]
  refine congrArg (fun f => Cert.Attn.rowAttn f s) (funext fun s' => ?_)
  rw [matmul_nt_apply]
  refine Finset.sum_congr rfl fun h' _ => ?_
  show shapeCast S512x1024 x0 shapeCasts_S1x512x1024_S512x1024 (ix2 t h') * shapeCast S1024x1024 x1 shapeCasts_S1x1024x1024_S1024x1024 (ix2 s' h') = _
  rw [shapeCast_1ab_ab_apply, shapeCast_1ab_ab_apply]

/-- When the three loaded blocks are batch `p` of three arrays, the stored block at an index is the whole computation's
    element at that index moved into batch `p`. -/
theorem block_value (X : S32x512x1024.Idx → EReal) (K V' : S32x1024x1024.Idx → EReal) (p : Fin 32)
    (x0 : FVec Ideal S1x512x1024 .f32) (x1 x2 : FVec Ideal S1x1024x1024 .bf16)
    (h0 : ∀ (t : Fin 512) (h : Fin 1024), x0 (ix3 (0 : Fin 1) t h) = X (ix3 p t h))
    (h1 : ∀ (s h : Fin 1024), x1 (ix3 (0 : Fin 1) s h) = K (ix3 p s h))
    (h2 : ∀ (s h : Fin 1024), x2 (ix3 (0 : Fin 1) s h) = V' (ix3 p s h))
    (y : S1x512x1024.Idx) (i : S32x512x1024.Idx)
    (hi0 : (i 0).val = p.val) (hi1 : (i 1).val = (y 1).val) (hi2 : (i 2).val = (y 2).val) :
    (k1_pay1 (F := Ideal) x0 x1 x2 y : EReal) = Cert.Attn.outArr X K V' i := by
  obtain ⟨u, t, h, rfl⟩ : ∃ (u : Fin 1) (t : Fin 512) (h : Fin 1024), y = ix3 u t h := ⟨y 0, y 1, y 2, eq_ix3 y⟩
  obtain rfl : u = 0 := Subsingleton.elim _ _
  have hi : i = ix3 p t h := by
    funext a
    match a with
    | ⟨0, _⟩ => exact Fin.ext hi0
    | ⟨1, _⟩ => exact Fin.ext hi1
    | ⟨2, _⟩ => exact Fin.ext hi2
  rw [hi, Cert.Attn.outArr_ix3, pay_apply]
  unfold Cert.Attn.outAt Cert.Attn.score
  simp only [h0, h1, h2]

end Cert.KernelIdeal.AttnBody

end
-- ==== Proof.AttnRegion.lean ====
/-
  The attention region's output array after its last grid point.

  The region has 32 grid points; point p fetches batch p of the queries, the keys and the values (blocks [1, 512, 1024] and
  [1, 1024, 1024] at block index (p, 0, 0)) and writes back batch p of the result. An element (0, t, h) of a block is the
  element (p, t, h) of its array. So what point p writes back is batch p of the whole computation over the three arrays as
  the region finds them, the 32 write-backs tile the result array, and the array ends holding the whole computation.
-/
import proofs.«105669_j10969346474266_1_alg».proof.Proof.Gen.KernelIdeal.Frame
import proofs.«105669_j10969346474266_1_alg».proof.Proof.AttnBody
import Idealize.ShloMosaic.Lib.Pipeline.Value

set_option maxRecDepth 16384

noncomputable section

namespace Cert.KernelIdeal.AttnRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- The block index of every window at point `t` is (t, 0, 0). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

theorem N_eq : cfg1.N = 32 := N_1

/-- The queries' block at point `p`: element (0, t, h) is the array's element (p, t, h). -/
theorem iblk_x (c : Dev nD) (p : Fin cfg1.N) (q : Fin 32) (hq : q.val = p.val) (t : Fin 512) (h : Fin 1024) :
    (iblk1 V c 0 p : FVec Ideal S1x512x1024 .f32) (ix3 (0 : Fin 1) t h)
      = (V c main_arg1 : S32x512x1024.Idx → EReal) (ix3 q t h) := by
  obtain ⟨⟨e0, e1, e2⟩, -, -, -⟩ := idx_facts p
  unfold iblk1
  rw [View.read_apply]
  show V c main_arg1 _ = V c main_arg1 _
  refine congrArg (V c main_arg1) ?_
  funext a; apply Fin.ext
  match a with
  | ⟨0, _⟩ => show win1_0.index p (0 : Fin 3) * 1 + 1 * 0 = q.val; omega
  | ⟨1, _⟩ => show win1_0.index p (1 : Fin 3) * 512 + 1 * t.val = t.val; omega
  | ⟨2, _⟩ => show win1_0.index p (2 : Fin 3) * 1024 + 1 * h.val = h.val; omega

/-- The keys' block at point `p`. -/
theorem iblk_k (c : Dev nD) (p : Fin cfg1.N) (q : Fin 32) (hq : q.val = p.val) (s h : Fin 1024) :
    (iblk1 V c 1 p : FVec Ideal S1x1024x1024 .bf16) (ix3 (0 : Fin 1) s h)
      = (V c main_v9 : S32x1024x1024.Idx → EReal) (ix3 q s h) := by
  obtain ⟨-, ⟨e0, e1, e2⟩, -, -⟩ := idx_facts p
  unfold iblk1
  rw [View.read_apply]
  show V c main_v9 _ = V c main_v9 _
  refine congrArg (V c main_v9) ?_
  funext a; apply Fin.ext
  match a with
  | ⟨0, _⟩ => show win1_1.index p (0 : Fin 3) * 1 + 1 * 0 = q.val; omega
  | ⟨1, _⟩ => show win1_1.index p (1 : Fin 3) * 1024 + 1 * s.val = s.val; omega
  | ⟨2, _⟩ => show win1_1.index p (2 : Fin 3) * 1024 + 1 * h.val = h.val; omega

/-- The values' block at point `p`. -/
theorem iblk_v (c : Dev nD) (p : Fin cfg1.N) (q : Fin 32) (hq : q.val = p.val) (s h : Fin 1024) :
    (iblk1 V c 2 p : FVec Ideal S1x1024x1024 .bf16) (ix3 (0 : Fin 1) s h)
      = (V c main_v10 : S32x1024x1024.Idx → EReal) (ix3 q s h) := by
  obtain ⟨-, -, ⟨e0, e1, e2⟩, -⟩ := idx_facts p
  unfold iblk1
  rw [View.read_apply]
  show V c main_v10 _ = V c main_v10 _
  refine congrArg (V c main_v10) ?_
  funext a; apply Fin.ext
  match a with
  | ⟨0, _⟩ => show win1_2.index p (0 : Fin 3) * 1 + 1 * 0 = q.val; omega
  | ⟨1, _⟩ => show win1_2.index p (1 : Fin 3) * 1024 + 1 * s.val = s.val; omega
  | ⟨2, _⟩ => show win1_2.index p (2 : Fin 3) * 1024 + 1 * h.val = h.val; omega

/-- What point `p` writes back is batch `p` of the whole computation over the arrays as the region finds them. -/
theorem flushed_eq (c : Dev nD) (p : Fin cfg1.N) :
    (dat1 V c).flushed 3 p = ((cfg1.win 3).blk p).view.read (Elt Ideal)
      (Cert.Attn.outArr (V c main_arg1) (V c main_v9) (V c main_v10)) := by
  have hp : p.val < 32 := lt_of_lt_of_eq p.isLt N_eq
  obtain ⟨-, -, -, ⟨e0, e1, e2⟩⟩ := idx_facts p
  show (cfg1.win 3).cut (grid1.coords p) ((dat1 V c).after 3 p) = _
  rw [after1_3]
  unfold out1_3
  rw [View.canon_unit_zero hz]
  simp only [View.ld_unit_zero (S := S1x512x1024) hz, View.ld_unit_zero (S := S1x1024x1024) hz]
  funext j
  show (k1_pay1 (F := Ideal) (iblk1 V c 0 p) (iblk1 V c 1 p) (iblk1 V c 2 p) j : EReal)
    = Cert.Attn.outArr (V c main_arg1) (V c main_v9) (V c main_v10) (((cfg1.win 3).blk p).view.emb j)
  refine AttnBody.block_value (V c main_arg1) (V c main_v9) (V c main_v10) (⟨p.val, hp⟩ : Fin 32)
    (iblk1 V c 0 p) (iblk1 V c 1 p) (iblk1 V c 2 p)
    (fun t h => iblk_x V c p ⟨p.val, hp⟩ rfl t h) (fun s h => iblk_k V c p ⟨p.val, hp⟩ rfl s h)
    (fun s h => iblk_v V c p ⟨p.val, hp⟩ rfl s h) j _ ?_ ?_ ?_
  · show win1_3.index p (0 : Fin 3) * 1 + 1 * (j 0).val = p.val
    have : (j 0).val < 1 := (j 0).isLt
    omega
  · show win1_3.index p (1 : Fin 3) * 512 + 1 * (j 1).val = (j 1).val
    omega
  · show win1_3.index p (2 : Fin 3) * 1024 + 1 * (j 2).val = (j 2).val
    omega

/-- An index of the result array is in point `t`'s block iff each coordinate is in the block's range on its axis. -/
theorem mem_blk (t : Fin cfg1.N) (i : S32x512x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v11).slice (win1_3.rect t)).set ↔ _
  rw [View.set_slice_whole, Rect.mem_set_unit]
  exact Iff.rfl

/-- The result array after the last grid point: the whole computation over the arrays as the region finds them. -/
theorem final (c : Dev nD) :
    (dat1 V c).arrAt 3 cfg1.N = Cert.Attn.outArr (V c main_arg1) (V c main_v9) (V c main_v10) :=
  (dat1 V c).arrAt_eq_of_cover 3 _ (fun t _ => flushed_eq V c t) fun i => by
    have hi0 : (i 0).val < 32 := (i 0).isLt
    have hi1 : (i 1).val < 512 := (i 1).isLt
    have hi2 : (i 2).val < 1024 := (i 2).isLt
    let t : Fin cfg1.N := ⟨(i 0).val, by rw [N_eq]; exact hi0⟩
    obtain ⟨-, -, -, ⟨e0, e1, e2⟩⟩ := idx_facts t
    have ht : t.val = (i 0).val := rfl
    refine ⟨t, flush1_3 t, ?_⟩
    rw [mem_blk]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 512 ≤ (i 1).val ∧ (i 1).val < win1_3.index t (1 : Fin 3) * 512 + 512; omega
    | ⟨2, _⟩ => show win1_3.index t (2 : Fin 3) * 1024 ≤ (i 2).val ∧ (i 2).val < win1_3.index t (2 : Fin 3) * 1024 + 1024; omega

end Cert.KernelIdeal.AttnRegion

end
-- ==== Proof.ProjBody.lean ====
/-
  The projection kernel's body, read one element at a time on the extended reals.

  The body takes 1024 rows x0 of the flattened hidden states, the joined weights x1 [1024, 2048] (keys' columns first, values'
  after them) and the joined bias x2 [1, 2048]; it forms x0 · x1 + x2 and stores the first 1024 columns as the keys' block
  and the last 1024 as the values' block. So at (r, k) the keys' block holds (∑ h, x0[r,h] · x1[h,k]) + x2[0,k] and the
  values' block the same at column 1024 + k. When x0 is rows 1024·p … 1024·p + 1023 of an array A and x1, x2 are the whole
  arrays W and B, the stored element is `flat A W B off` at row 1024·p + r.
-/
import proofs.«105669_j10969346474266_1_alg».proof.Proof.KOps

noncomputable section

open scoped BigOperators

namespace Cert.KernelIdeal.ProjBody

open Cert.KernelIdeal Cert.KernelIdeal.Gen Cert.KernelIdeal.KOps Idealize.ShloMosaic Idealize.ShloMosaic.ValueIdx

/-- Row `R` of `A` against column `off + k` of `W`, plus the bias there: the flattened projection, as an array [32768, 1024]. -/
def flat (A : S32768x1024.Idx → EReal) (W : S1024x2048.Idx → EReal) (B : S1x2048.Idx → EReal) (off : Nat) (hoff : off + 1024 ≤ 2048) :
    S32768x1024.Idx → EReal :=
  fun i => (∑ h : Fin 1024, A (ix2 (⟨(i 0).val, (i 0).isLt⟩ : Fin 32768) h)
      * W (ix2 h (⟨off + (i 1).val, by have := (i 1).isLt; change (i 1).val < 1024 at this; omega⟩ : Fin 2048)))
    + B (ix2 (0 : Fin 1) (⟨off + (i 1).val, by have := (i 1).isLt; change (i 1).val < 1024 at this; omega⟩ : Fin 2048))

theorem flat_ix2 (A : S32768x1024.Idx → EReal) (W : S1024x2048.Idx → EReal) (B : S1x2048.Idx → EReal) (off : Nat) (hoff : off + 1024 ≤ 2048)
    (R : Fin 32768) (k : Fin 1024) :
    flat A W B off hoff (ix2 R k) = (∑ h : Fin 1024, A (ix2 R h) * W (ix2 h (⟨off + k.val, by omega⟩ : Fin 2048)))
      + B (ix2 (0 : Fin 1) (⟨off + k.val, by omega⟩ : Fin 2048)) := rfl

/-- The product plus the bias, before the split into keys and values. -/
theorem sum_apply (x0 : FVec Ideal S1024x1024 .f32) (x1 : FVec Ideal S1024x2048 .bf16) (x2 : FVec Ideal S1x2048 .f32) (r : Fin 1024) (j : Fin 2048) :
    (k0_pay1 (F := Ideal) x0 x1 x2 (ix2 r j) : EReal) = (∑ h : Fin 1024, x0 (ix2 r h) * x1 (ix2 h j)) + x2 (ix2 (0 : Fin 1) j) := by
  have e : k0_pay1 (F := Ideal) x0 x1 x2 = addf (matmul dot_S1024x1024_S1024x2048_S1024x2048_1_0_0_1_n_n none (truncf .bf16 x0 bitsLt_bf16_f32) x1 (constant S1024x2048 .f32 0x00000000#32))
      (broadcastTo S1024x2048 x2 broadcasts_S1x2048_S1024x2048) := by
    unfold k0_pay1
    simp only [shapeCast_self]
  rw [e]
  show matmul dot_S1024x1024_S1024x2048_S1024x2048_1_0_0_1_n_n none (truncf .bf16 x0 bitsLt_bf16_f32) x1 (constant S1024x2048 .f32 0x00000000#32) (ix2 r j)
    + broadcastTo S1024x2048 x2 broadcasts_S1x2048_S1024x2048 (ix2 r j) = _
  rw [matmul_proj_apply, broadcastTo_1b_ab_apply]
  rfl

/-- The keys' block: the first 1024 columns. -/
theorem payK_apply (x0 : FVec Ideal S1024x1024 .f32) (x1 : FVec Ideal S1024x2048 .bf16) (x2 : FVec Ideal S1x2048 .f32) (r k : Fin 1024) :
    (k0_pay2 (F := Ideal) x0 x1 x2 (ix2 r k) : EReal) = (∑ h : Fin 1024, x0 (ix2 r h) * x1 (ix2 h (⟨0 + k.val, by omega⟩ : Fin 2048)))
      + x2 (ix2 (0 : Fin 1) (⟨0 + k.val, by omega⟩ : Fin 2048)) := by
  unfold k0_pay2
  show extractStridedSlice S1024x1024 ![0, 0] (k0_pay1 (F := Ideal) x0 x1 x2) slices_S1024x2048_o0_0_S1024x1024 (ix2 r k) = _
  rw [slice2_axis1_apply 0 (k0_pay1 (F := Ideal) x0 x1 x2) slices_S1024x2048_o0_0_S1024x1024 r k (⟨0 + k.val, by omega⟩ : Fin 2048) rfl]
  exact sum_apply x0 x1 x2 r _

/-- The values' block: the last 1024 columns. -/
theorem payV_apply (x0 : FVec Ideal S1024x1024 .f32) (x1 : FVec Ideal S1024x2048 .bf16) (x2 : FVec Ideal S1x2048 .f32) (r k : Fin 1024) :
    (k0_pay3 (F := Ideal) x0 x1 x2 (ix2 r k) : EReal) = (∑ h : Fin 1024, x0 (ix2 r h) * x1 (ix2 h (⟨1024 + k.val, by omega⟩ : Fin 2048)))
      + x2 (ix2 (0 : Fin 1) (⟨1024 + k.val, by omega⟩ : Fin 2048)) := by
  unfold k0_pay3
  show extractStridedSlice S1024x1024 ![0, 1024] (k0_pay1 (F := Ideal) x0 x1 x2) slices_S1024x2048_o0_1024_S1024x1024 (ix2 r k) = _
  rw [slice2_axis1_apply 1024 (k0_pay1 (F := Ideal) x0 x1 x2) slices_S1024x2048_o0_1024_S1024x1024 r k (⟨1024 + k.val, by omega⟩ : Fin 2048) rfl]
  exact sum_apply x0 x1 x2 r _

/-- When the hidden block is rows 1024·p … of `A` and the other two blocks are the whole arrays, the keys' block at an index
    is the flattened projection at that index moved down 1024·p rows. -/
theorem block_valueK (A : S32768x1024.Idx → EReal) (W : S1024x2048.Idx → EReal) (B : S1x2048.Idx → EReal) (p : Fin 32)
    (x0 : FVec Ideal S1024x1024 .f32) (x1 : FVec Ideal S1024x2048 .bf16) (x2 : FVec Ideal S1x2048 .f32)
    (h0 : ∀ (r h : Fin 1024), x0 (ix2 r h) = A (ix2 (⟨p.val * 1024 + r.val, by omega⟩ : Fin 32768) h))
    (h1 : ∀ (h : Fin 1024) (j : Fin 2048), x1 (ix2 h j) = W (ix2 h j))
    (h2 : ∀ (j : Fin 2048), x2 (ix2 (0 : Fin 1) j) = B (ix2 (0 : Fin 1) j))
    (y : S1024x1024.Idx) (i : S32768x1024.Idx)
    (hi0 : (i 0).val = p.val * 1024 + (y 0).val) (hi1 : (i 1).val = (y 1).val) :
    (k0_pay2 (F := Ideal) x0 x1 x2 y : EReal) = flat A W B 0 (by omega) i := by
  obtain ⟨r, k, rfl⟩ : ∃ (r k : Fin 1024), y = ix2 r k := ⟨y 0, y 1, eq_ix2 y⟩
  have hi : i = ix2 (⟨p.val * 1024 + r.val, by omega⟩ : Fin 32768) k := by
    funext a
    match a with
    | ⟨0, _⟩ => exact Fin.ext hi0
    | ⟨1, _⟩ => exact Fin.ext hi1
  rw [hi, flat_ix2, payK_apply]
  simp only [h0, h1, h2]

/-- The same for the values' block. -/
theorem block_valueV (A : S32768x1024.Idx → EReal) (W : S1024x2048.Idx → EReal) (B : S1x2048.Idx → EReal) (p : Fin 32)
    (x0 : FVec Ideal S1024x1024 .f32) (x1 : FVec Ideal S1024x2048 .bf16) (x2 : FVec Ideal S1x2048 .f32)
    (h0 : ∀ (r h : Fin 1024), x0 (ix2 r h) = A (ix2 (⟨p.val * 1024 + r.val, by omega⟩ : Fin 32768) h))
    (h1 : ∀ (h : Fin 1024) (j : Fin 2048), x1 (ix2 h j) = W (ix2 h j))
    (h2 : ∀ (j : Fin 2048), x2 (ix2 (0 : Fin 1) j) = B (ix2 (0 : Fin 1) j))
    (y : S1024x1024.Idx) (i : S32768x1024.Idx)
    (hi0 : (i 0).val = p.val * 1024 + (y 0).val) (hi1 : (i 1).val = (y 1).val) :
    (k0_pay3 (F := Ideal) x0 x1 x2 y : EReal) = flat A W B 1024 (by omega) i := by
  obtain ⟨r, k, rfl⟩ : ∃ (r k : Fin 1024), y = ix2 r k := ⟨y 0, y 1, eq_ix2 y⟩
  have hi : i = ix2 (⟨p.val * 1024 + r.val, by omega⟩ : Fin 32768) k := by
    funext a
    match a with
    | ⟨0, _⟩ => exact Fin.ext hi0
    | ⟨1, _⟩ => exact Fin.ext hi1
  rw [hi, flat_ix2, payV_apply]
  simp only [h0, h1, h2]

end Cert.KernelIdeal.ProjBody

end
-- ==== Proof.ProjRegion.lean ====
/-
  The projection region's two output arrays after its last grid point.

  The region has 32 grid points; point p fetches rows 1024·p … 1024·p + 1023 of the flattened hidden states (block index
  (p, 0)), keeps the whole joined weights and the whole joined bias resident (block index (0, 0) at every point), and writes
  back the same rows of the keys' and of the values' arrays. So what point p writes back is those rows of the flattened
  projection over the arrays as the region finds them; the 32 write-backs tile each array.
-/
import proofs.«105669_j10969346474266_1_alg».proof.Proof.Gen.KernelIdeal.Frame
import proofs.«105669_j10969346474266_1_alg».proof.Proof.ProjBody
import Idealize.ShloMosaic.Lib.Pipeline.Value

set_option maxRecDepth 16384

noncomputable section

namespace Cert.KernelIdeal.ProjRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: (t, 0) for the hidden rows and the two outputs, (0, 0) for the weights and the bias. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem N_eq : cfg0.N = 32 := N_0

/-- The hidden rows' block at point `p`: element (r, h) is the array's element (1024·p + r, h). -/
theorem iblk_a (c : Dev nD) (p : Fin cfg0.N) (R : Fin 32768) (r h : Fin 1024) (hR : R.val = p.val * 1024 + r.val) :
    (iblk0 V c 0 p : FVec Ideal S1024x1024 .f32) (ix2 r h) = (V c main_v1 : S32768x1024.Idx → EReal) (ix2 R h) := by
  obtain ⟨⟨e0, e1⟩, -, -, -, -⟩ := idx_facts p
  unfold iblk0
  rw [View.read_apply]
  show V c main_v1 _ = V c main_v1 _
  refine congrArg (V c main_v1) ?_
  funext a; apply Fin.ext
  match a with
  | ⟨0, _⟩ => show win0_0.index p (0 : Fin 2) * 1024 + 1 * r.val = R.val; omega
  | ⟨1, _⟩ => show win0_0.index p (1 : Fin 2) * 1024 + 1 * h.val = h.val; omega

/-- The weights' block at every point is the whole array. -/
theorem iblk_w (c : Dev nD) (p : Fin cfg0.N) (h : Fin 1024) (j : Fin 2048) :
    (iblk0 V c 1 p : FVec Ideal S1024x2048 .bf16) (ix2 h j) = (V c main_v5 : S1024x2048.Idx → EReal) (ix2 h j) := by
  obtain ⟨-, ⟨e0, e1⟩, -, -, -⟩ := idx_facts p
  unfold iblk0
  rw [View.read_apply]
  show V c main_v5 _ = V c main_v5 _
  refine congrArg (V c main_v5) ?_
  funext a; apply Fin.ext
  match a with
  | ⟨0, _⟩ => show win0_1.index p (0 : Fin 2) * 1024 + 1 * h.val = h.val; omega
  | ⟨1, _⟩ => show win0_1.index p (1 : Fin 2) * 2048 + 1 * j.val = j.val; omega

/-- The bias's block at every point is the whole array. -/
theorem iblk_b (c : Dev nD) (p : Fin cfg0.N) (j : Fin 2048) :
    (iblk0 V c 2 p : FVec Ideal S1x2048 .f32) (ix2 (0 : Fin 1) j) = (V c main_v7 : S1x2048.Idx → EReal) (ix2 (0 : Fin 1) j) := by
  obtain ⟨-, -, ⟨e0, e1⟩, -, -⟩ := idx_facts p
  unfold iblk0
  rw [View.read_apply]
  show V c main_v7 _ = V c main_v7 _
  refine congrArg (V c main_v7) ?_
  funext a; apply Fin.ext
  match a with
  | ⟨0, _⟩ => show win0_2.index p (0 : Fin 2) * 1 + 1 * 0 = 0; omega
  | ⟨1, _⟩ => show win0_2.index p (1 : Fin 2) * 2048 + 1 * j.val = j.val; omega

/-- What point `p` writes back to the keys' array: its rows of the flattened projection, first 1024 columns. -/
theorem flushedK_eq (c : Dev nD) (p : Fin cfg0.N) :
    (dat0 V c).flushed 3 p = ((cfg0.win 3).blk p).view.read (Elt Ideal)
      (ProjBody.flat (V c main_v1) (V c main_v5) (V c main_v7) 0 (by omega)) := by
  have hp : p.val < 32 := lt_of_lt_of_eq p.isLt N_eq
  obtain ⟨-, -, -, ⟨e0, e1⟩, -⟩ := idx_facts p
  show (cfg0.win 3).cut (grid0.coords p) ((dat0 V c).after 3 p) = _
  rw [after0_3]
  unfold out0_3
  rw [View.canon_unit_zero hz]
  simp only [View.ld_unit_zero (S := S1024x1024) hz, View.ld_unit_zero (S := S1024x2048) hz, View.ld_unit_zero (S := S1x2048) hz]
  funext j
  show (k0_pay2 (F := Ideal) (iblk0 V c 0 p) (iblk0 V c 1 p) (iblk0 V c 2 p) j : EReal)
    = ProjBody.flat (V c main_v1) (V c main_v5) (V c main_v7) 0 (by omega) (((cfg0.win 3).blk p).view.emb j)
  refine ProjBody.block_valueK (V c main_v1) (V c main_v5) (V c main_v7) (⟨p.val, hp⟩ : Fin 32)
    (iblk0 V c 0 p) (iblk0 V c 1 p) (iblk0 V c 2 p)
    (fun r h => iblk_a V c p _ r h rfl) (fun h j => iblk_w V c p h j) (fun j => iblk_b V c p j) j _ ?_ ?_
  · show win0_3.index p (0 : Fin 2) * 1024 + 1 * (j 0).val = p.val * 1024 + (j 0).val
    omega
  · show win0_3.index p (1 : Fin 2) * 1024 + 1 * (j 1).val = (j 1).val
    omega

/-- What point `p` writes back to the values' array: the same rows, last 1024 columns. -/
theorem flushedV_eq (c : Dev nD) (p : Fin cfg0.N) :
    (dat0 V c).flushed 4 p = ((cfg0.win 4).blk p).view.read (Elt Ideal)
      (ProjBody.flat (V c main_v1) (V c main_v5) (V c main_v7) 1024 (by omega)) := by
  have hp : p.val < 32 := lt_of_lt_of_eq p.isLt N_eq
  obtain ⟨-, -, -, -, ⟨e0, e1⟩⟩ := idx_facts p
  show (cfg0.win 4).cut (grid0.coords p) ((dat0 V c).after 4 p) = _
  rw [after0_4]
  unfold out0_4
  rw [View.canon_unit_zero hz]
  simp only [View.ld_unit_zero (S := S1024x1024) hz, View.ld_unit_zero (S := S1024x2048) hz, View.ld_unit_zero (S := S1x2048) hz]
  funext j
  show (k0_pay3 (F := Ideal) (iblk0 V c 0 p) (iblk0 V c 1 p) (iblk0 V c 2 p) j : EReal)
    = ProjBody.flat (V c main_v1) (V c main_v5) (V c main_v7) 1024 (by omega) (((cfg0.win 4).blk p).view.emb j)
  refine ProjBody.block_valueV (V c main_v1) (V c main_v5) (V c main_v7) (⟨p.val, hp⟩ : Fin 32)
    (iblk0 V c 0 p) (iblk0 V c 1 p) (iblk0 V c 2 p)
    (fun r h => iblk_a V c p _ r h rfl) (fun h j => iblk_w V c p h j) (fun j => iblk_b V c p j) j _ ?_ ?_
  · show win0_4.index p (0 : Fin 2) * 1024 + 1 * (j 0).val = p.val * 1024 + (j 0).val
    omega
  · show win0_4.index p (1 : Fin 2) * 1024 + 1 * (j 1).val = (j 1).val
    omega

/-- An index of the keys' array is in point `t`'s block iff each coordinate is in the block's range on its axis. -/
theorem mem_blkK (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8_0).slice (win0_3.rect t)).set ↔ _
  rw [View.set_slice_whole, Rect.mem_set_unit]
  exact Iff.rfl

theorem mem_blkV (t : Fin cfg0.N) (i : S32768x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8_1).slice (win0_4.rect t)).set ↔ _
  rw [View.set_slice_whole, Rect.mem_set_unit]
  exact Iff.rfl

/-- The keys' array after the last grid point. -/
theorem finalK (c : Dev nD) :
    (dat0 V c).arrAt 3 cfg0.N = ProjBody.flat (V c main_v1) (V c main_v5) (V c main_v7) 0 (by omega) :=
  (dat0 V c).arrAt_eq_of_cover 3 _ (fun t _ => flushedK_eq V c t) fun i => by
    have hi0 : (i 0).val < 32768 := (i 0).isLt
    have hi1 : (i 1).val < 1024 := (i 1).isLt
    let t : Fin cfg0.N := ⟨(i 0).val / 1024, by rw [N_eq]; omega⟩
    obtain ⟨-, -, -, ⟨e0, e1⟩, -⟩ := idx_facts t
    have ht : t.val = (i 0).val / 1024 := rfl
    refine ⟨t, flush0_3 t, ?_⟩
    rw [mem_blkK]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-- The values' array after the last grid point. -/
theorem finalV (c : Dev nD) :
    (dat0 V c).arrAt 4 cfg0.N = ProjBody.flat (V c main_v1) (V c main_v5) (V c main_v7) 1024 (by omega) :=
  (dat0 V c).arrAt_eq_of_cover 4 _ (fun t _ => flushedV_eq V c t) fun i => by
    have hi0 : (i 0).val < 32768 := (i 0).isLt
    have hi1 : (i 1).val < 1024 := (i 1).isLt
    let t : Fin cfg0.N := ⟨(i 0).val / 1024, by rw [N_eq]; omega⟩
    obtain ⟨-, -, -, -, ⟨e0, e1⟩⟩ := idx_facts t
    have ht : t.val = (i 0).val / 1024 := rfl
    refine ⟨t, flush0_4 t, ?_⟩
    rw [mem_blkV]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1024 ≤ (i 1).val ∧ (i 1).val < win0_4.index t (1 : Fin 2) * 1024 + 1024; omega

end Cert.KernelIdeal.ProjRegion

end
-- ==== Proof.HostGlue.lean ====
/-
  The host operations the kernel program applies around its two kernels, read one element at a time, and the projection
  they amount to.

  Before the first kernel the hidden states [1024, 32, 1024] are transposed to batch-major and flattened to rows
  32768 = 32 · 1024, the two weight matrices are transposed and joined side by side along their columns (keys' columns
  first, values' after them), and the two biases are joined end to end and given a leading unit axis. After it each flat
  result [32768, 1024] is cut back into [32, 1024, 1024]. Row 1024 · b + s of the flattened hidden states is the hidden state
  of position s in batch b, column k of the joined weights is row k of the keys' weight and column 1024 + k is row k of the
  values' weight, so the flat projection cut back is the projection `proj` of the formula.
-/
import proofs.«105669_j10969346474266_1_alg».proof.Proof.Gen.KernelIdeal
import proofs.«105669_j10969346474266_1_alg».proof.Proof.ProjBody
import proofs.«105669_j10969346474266_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Glue

open Cert.KernelIdeal Cert.KernelIdeal.Gen Idealize.ShloMosaic Idealize.ShloMosaic.ValueIdx

/-! ## The host operations, composed -/

/-- The hidden states transposed to batch-major and flattened: [1024, 32, 1024] → [32, 1024, 1024] → [32768, 1024]. -/
def hidFlat (x0 : FVec Ideal S1024x32x1024 .f32) : FVec Ideal S32768x1024 .f32 :=
  shapeCast S32768x1024 (transpose S32x1024x1024 [1, 0, 2] x0 transposes_S1024x32x1024_S32x1024x1024_1_0_2) shapeCasts_S32x1024x1024_S32768x1024

/-- The two weights, each transposed, joined along the columns: [1024, 2048]. -/
def wcat (x3 x5 : FVec Ideal S1024x1024 .f32) : FVec Ideal S1024x2048 .bf16 :=
  truncf .bf16 (concatenate S1024x2048 1 [⟨S1024x1024, transpose S1024x1024 [1, 0] x3 transposes_S1024x1024_S1024x1024_1_0⟩, ⟨S1024x1024, transpose S1024x1024 [1, 0] x5 transposes_S1024x1024_S1024x1024_1_0⟩] concatenates_S1024x1024_S1024x1024_S1024x2048_d1) bitsLt_bf16_f32

/-- The two biases joined end to end, as one row: [1, 2048]. -/
def bcat (x4 x6 : FVec Ideal S1024 .f32) : FVec Ideal S1x2048 .f32 :=
  shapeCast S1x2048 (concatenate S2048 0 [⟨S1024, x4⟩, ⟨S1024, x6⟩] concatenates_S1024_S1024_S2048_d0) shapeCasts_S2048_S1x2048

/-- A flat result cut back into batches: [32768, 1024] → [32, 1024, 1024]. -/
def unflat (y : S32768x1024.Idx → EReal) : S32x1024x1024.Idx → EReal :=
  shapeCast S32x1024x1024 y shapeCasts_S32768x1024_S32x1024x1024

/-! ## Each read at an index -/

/-- Row 1024 · b + s of the flattened hidden states is the hidden state of position `s` in batch `b`: the reshape keeps the
    row-major position, the transpose swaps the first two axes. -/
theorem hidFlat_apply (x0 : FVec Ideal S1024x32x1024 .f32) (b : Fin 32) (s h : Fin 1024) :
    hidFlat x0 (ix2 (⟨b.val * 1024 + s.val, by omega⟩ : Fin 32768) h) = x0 (ix3 s b h) := by
  unfold hidFlat
  refine (shapeCast_apply _ shapeCasts_S32x1024x1024_S32768x1024 _ (ix3 b s h) ?_).trans ?_
  · rw [Shape.rowMajor_val_three, Shape.rowMajor_val_two]
    rfl
  · exact transpose_apply [1, 0, 2] x0 transposes_S1024x32x1024_S32x1024x1024_1_0_2 (ix3 b s h) (ix3 s b h)
      (fun c => match c with | ⟨0, _⟩ => rfl | ⟨1, _⟩ => rfl | ⟨2, _⟩ => rfl)

/-- Column `k` of the joined weights is row `k` of the first weight. -/
theorem wcat_left (x3 x5 : FVec Ideal S1024x1024 .f32) (h k : Fin 1024) :
    wcat x3 x5 (ix2 h (⟨0 + k.val, by omega⟩ : Fin 2048)) = x3 (ix2 k h) := by
  unfold wcat
  refine (truncf_apply _ bitsLt_bf16_f32 _).trans ?_
  refine (concatenate_pair_apply_left (1 : Fin S1024x2048.rank) _ _ concatenates_S1024x1024_S1024x1024_S1024x2048_d1
    (ix2 h (⟨0 + k.val, by omega⟩ : Fin 2048)) rfl (ix2 h k)
    (fun c => match c with | ⟨0, _⟩ => rfl | ⟨1, _⟩ => by show k.val = 0 + k.val; omega)).trans ?_
  exact transpose_ix2_apply x3 transposes_S1024x1024_S1024x1024_1_0 h k

/-- Column 1024 + `k` of the joined weights is row `k` of the second weight. -/
theorem wcat_right (x3 x5 : FVec Ideal S1024x1024 .f32) (h k : Fin 1024) :
    wcat x3 x5 (ix2 h (⟨1024 + k.val, by omega⟩ : Fin 2048)) = x5 (ix2 k h) := by
  unfold wcat
  refine (truncf_apply _ bitsLt_bf16_f32 _).trans ?_
  refine (concatenate_pair_apply_right (1 : Fin S1024x2048.rank) _ _ concatenates_S1024x1024_S1024x1024_S1024x2048_d1
    (ix2 h (⟨1024 + k.val, by omega⟩ : Fin 2048)) rfl rfl (ix2 h k)
    (fun c => match c with | ⟨0, _⟩ => fun _ => rfl | ⟨1, _⟩ => fun hne => absurd rfl hne)
    (by show k.val + 1024 = 1024 + k.val; omega)).trans ?_
  exact transpose_ix2_apply x5 transposes_S1024x1024_S1024x1024_1_0 h k

/-- Entry `k` of the joined bias row is entry `k` of the first bias. -/
theorem bcat_left (x4 x6 : FVec Ideal S1024 .f32) (k : Fin 1024) :
    bcat x4 x6 (ix2 (0 : Fin 1) (⟨0 + k.val, by omega⟩ : Fin 2048)) = x4 (ix1 k) := by
  unfold bcat
  refine (shapeCast_a_1a_apply _ shapeCasts_S2048_S1x2048 (0 : Fin 1) (⟨0 + k.val, by omega⟩ : Fin 2048)).trans ?_
  exact concatenate_pair_apply_left (0 : Fin S2048.rank) x4 x6 concatenates_S1024_S1024_S2048_d0
    (ix1 (⟨0 + k.val, by omega⟩ : Fin 2048)) rfl (ix1 k)
    (fun c => match c with | ⟨0, _⟩ => by show k.val = 0 + k.val; omega)

/-- Entry 1024 + `k` of the joined bias row is entry `k` of the second bias. -/
theorem bcat_right (x4 x6 : FVec Ideal S1024 .f32) (k : Fin 1024) :
    bcat x4 x6 (ix2 (0 : Fin 1) (⟨1024 + k.val, by omega⟩ : Fin 2048)) = x6 (ix1 k) := by
  unfold bcat
  refine (shapeCast_a_1a_apply _ shapeCasts_S2048_S1x2048 (0 : Fin 1) (⟨1024 + k.val, by omega⟩ : Fin 2048)).trans ?_
  exact concatenate_pair_apply_right (0 : Fin S2048.rank) x4 x6 concatenates_S1024_S1024_S2048_d0
    (ix1 (⟨1024 + k.val, by omega⟩ : Fin 2048)) rfl rfl (ix1 k)
    (fun c => match c with | ⟨0, _⟩ => fun hne => absurd rfl hne)
    (by show k.val + 1024 = 1024 + k.val; omega)

/-- The flat result cut back, at batch `b`, position `s`, feature `k`, is its row 1024 · b + s at column `k`. -/
theorem unflat_apply (y : S32768x1024.Idx → EReal) (b : Fin 32) (s k : Fin 1024) :
    unflat y (ix3 b s k) = y (ix2 (⟨b.val * 1024 + s.val, by omega⟩ : Fin 32768) k) := by
  unfold unflat
  refine shapeCast_apply y shapeCasts_S32768x1024_S32x1024x1024 (ix3 b s k) _ ?_
  rw [Shape.rowMajor_val_three, Shape.rowMajor_val_two]
  rfl

/-! ## The flat projection cut back is the projection of the formula -/

/-- The keys: the first 1024 columns of the flattened hidden states against the joined weights plus the joined bias, cut back
    into batches, are the projection with the first weight and bias. -/
theorem unflat_flat_K (x0 : FVec Ideal S1024x32x1024 .f32) (x3 x5 : FVec Ideal S1024x1024 .f32) (x4 x6 : FVec Ideal S1024 .f32) :
    unflat (Cert.KernelIdeal.ProjBody.flat (hidFlat x0) (wcat x3 x5) (bcat x4 x6) 0 (by omega)) = Cert.Attn.projArr x0 x3 x4 := by
  funext i
  obtain ⟨b, s, k, rfl⟩ : ∃ (b : Fin 32) (s k : Fin 1024), i = ix3 b s k := ⟨i 0, i 1, i 2, eq_ix3 i⟩
  rw [unflat_apply, Cert.KernelIdeal.ProjBody.flat_ix2, Cert.Attn.projArr_ix3, bcat_left]
  unfold Cert.Attn.proj
  refine congrArg (· + x4 (ix1 k)) (Finset.sum_congr rfl fun h _ => ?_)
  rw [hidFlat_apply, wcat_left]

/-- The values: the last 1024 columns likewise are the projection with the second weight and bias. -/
theorem unflat_flat_V (x0 : FVec Ideal S1024x32x1024 .f32) (x3 x5 : FVec Ideal S1024x1024 .f32) (x4 x6 : FVec Ideal S1024 .f32) :
    unflat (Cert.KernelIdeal.ProjBody.flat (hidFlat x0) (wcat x3 x5) (bcat x4 x6) 1024 (by omega)) = Cert.Attn.projArr x0 x5 x6 := by
  funext i
  obtain ⟨b, s, k, rfl⟩ : ∃ (b : Fin 32) (s k : Fin 1024), i = ix3 b s k := ⟨i 0, i 1, i 2, eq_ix3 i⟩
  rw [unflat_apply, Cert.KernelIdeal.ProjBody.flat_ix2, Cert.Attn.projArr_ix3, bcat_right]
  unfold Cert.Attn.proj
  refine congrArg (· + x6 (ix1 k)) (Finset.sum_congr rfl fun h _ => ?_)
  rw [hidFlat_apply, wcat_right]

end Cert.KernelIdeal.Glue

end
-- ==== Proof.KernelValue.lean ====
/-
  The idealized kernel program's result as one function of its arguments.

  Before the first region the host lays the hidden states out batch-major and flat, joins the two transposed weights along
  the columns and the two biases end to end. The first region then leaves in its two output arrays the flattened keys' and
  values' projections; the host cuts each back into batches, which gives the two projections [32, 1024, 1024]. The second
  region finds the queries untouched and those two arrays, and leaves the attention of the queries over them in the result.
  So the program ends with the result buffer at `Cert.Attn.result` of the argument arrays, and the arguments as launched.
-/
import proofs.«105669_j10969346474266_1_alg».proof.Proof.Gen.KernelIdeal.Frame
import proofs.«105669_j10969346474266_1_alg».proof.Proof.KernelRun
import proofs.«105669_j10969346474266_1_alg».proof.Proof.AttnRegion
import proofs.«105669_j10969346474266_1_alg».proof.Proof.ProjRegion
import proofs.«105669_j10969346474266_1_alg».proof.Proof.HostGlue
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

/-- The hidden states, batch-major and flat. -/
theorem entry_hid (c : Dev nD) :
    (V1 m ρ c main_v1 : S32768x1024.Idx → EReal) = Glue.hidFlat (m ((c : Thread nD τ).loc main_arg0)) := by
  show StableHlo.after hostOps0 (W0 m ρ c) (Proc.devRef .tc main_v1) = _
  after_results
  rfl

/-- The joined weights. -/
theorem entry_w (c : Dev nD) :
    (V1 m ρ c main_v5 : S1024x2048.Idx → EReal)
      = Glue.wcat (m ((c : Thread nD τ).loc main_arg3)) (m ((c : Thread nD τ).loc main_arg5)) := by
  show StableHlo.after hostOps0 (W0 m ρ c) (Proc.devRef .tc main_v5) = _
  after_results
  rfl

/-- The joined bias. -/
theorem entry_b (c : Dev nD) :
    (V1 m ρ c main_v7 : S1x2048.Idx → EReal)
      = Glue.bcat (m ((c : Thread nD τ).loc main_arg4)) (m ((c : Thread nD τ).loc main_arg6)) := by
  show StableHlo.after hostOps0 (W0 m ρ c) (Proc.devRef .tc main_v7) = _
  after_results
  rfl

/-! ## What the first region leaves, and what the second finds -/

/-- The keys' array after the first region: the flattened projection, first 1024 columns of the joined weights. -/
theorem left_K (c : Dev nD) :
    (W2 m ρ c (Proc.devRef .tc main_v8_0) : S32768x1024.Idx → EReal)
      = ProjBody.flat (Glue.hidFlat (m ((c : Thread nD τ).loc main_arg0)))
          (Glue.wcat (m ((c : Thread nD τ).loc main_arg3)) (m ((c : Thread nD τ).loc main_arg5)))
          (Glue.bcat (m ((c : Thread nD τ).loc main_arg4)) (m ((c : Thread nD τ).loc main_arg6))) 0 (by omega) := by
  refine (W2_arr m ρ c 3).trans ?_
  rw [ProjRegion.finalK (V1 m ρ) c, entry_hid, entry_w, entry_b]

/-- The values' array after the first region: the last 1024 columns. -/
theorem left_V (c : Dev nD) :
    (W2 m ρ c (Proc.devRef .tc main_v8_1) : S32768x1024.Idx → EReal)
      = ProjBody.flat (Glue.hidFlat (m ((c : Thread nD τ).loc main_arg0)))
          (Glue.wcat (m ((c : Thread nD τ).loc main_arg3)) (m ((c : Thread nD τ).loc main_arg5)))
          (Glue.bcat (m ((c : Thread nD τ).loc main_arg4)) (m ((c : Thread nD τ).loc main_arg6))) 1024 (by omega) := by
  refine (W2_arr m ρ c 4).trans ?_
  rw [ProjRegion.finalV (V1 m ρ) c, entry_hid, entry_w, entry_b]

/-- The second region finds the keys' projection, cut back into batches. -/
theorem entry_K (c : Dev nD) :
    (V3 m ρ c main_v9 : S32x1024x1024.Idx → EReal)
      = Cert.Attn.projArr (m ((c : Thread nD τ).loc main_arg0)) (m ((c : Thread nD τ).loc main_arg3)) (m ((c : Thread nD τ).loc main_arg4)) := by
  show StableHlo.after hostOps1 (W2 m ρ c) (Proc.devRef .tc main_v9) = _
  after_results
  refine Eq.trans ?_ (Glue.unflat_flat_K (m ((c : Thread nD τ).loc main_arg0)) (m ((c : Thread nD τ).loc main_arg3))
    (m ((c : Thread nD τ).loc main_arg5)) (m ((c : Thread nD τ).loc main_arg4)) (m ((c : Thread nD τ).loc main_arg6)))
  rw [← left_K m ρ c]
  rfl

/-- The second region finds the values' projection, cut back into batches. -/
theorem entry_V (c : Dev nD) :
    (V3 m ρ c main_v10 : S32x1024x1024.Idx → EReal)
      = Cert.Attn.projArr (m ((c : Thread nD τ).loc main_arg0)) (m ((c : Thread nD τ).loc main_arg5)) (m ((c : Thread nD τ).loc main_arg6)) := by
  show StableHlo.after hostOps1 (W2 m ρ c) (Proc.devRef .tc main_v10) = _
  after_results
  refine Eq.trans ?_ (Glue.unflat_flat_V (m ((c : Thread nD τ).loc main_arg0)) (m ((c : Thread nD τ).loc main_arg3))
    (m ((c : Thread nD τ).loc main_arg5)) (m ((c : Thread nD τ).loc main_arg4)) (m ((c : Thread nD τ).loc main_arg6)))
  rw [← left_V m ρ c]
  rfl

/-- The second region finds the queries as launched: no host operation and no region writes them. -/
theorem entry_x (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The result -/

/-- The result buffer at the last boundary: the whole computation of the argument arrays. -/
theorem result_eq (c : Dev nD) :
    W4 m ρ c (Proc.devRef .tc main_v11)
      = Cert.Attn.result (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  rw [KRun.result_arr, AttnRegion.final (V3 m ρ) c, entry_x, entry_K, entry_V]
  rfl

/-- The run, read: every weakly fair execution terminates without a fault, the result buffer ends at the whole
    computation of the argument arrays, and the argument arrays end as launched. -/
theorem run : θ_run defs (onTc (τ := τ) (main (F := Ideal))) ⟨m, fun _ => 0, ρ⟩ (fun r => ∀ c : Dev nD,
      r.2.mem ((c.tc : Thread nD τ).loc main_v11)
        = Cert.Attn.result (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (KRun.run_fold m ρ)

end Cert.KernelIdeal.KValue

end
-- ==== Proof.RefValue.lean ====
/-
  The reference program's result, read one element at a time, is the attention formula of `Cert.Attn`:
  the two linear projections of the hidden states (keys and values), the scores of each query against the keys of its batch,
  the softmax of each row of scores written the stable way, the weighted sum of the values, and the logistic function.
-/
import proofs.«105669_j10969346474266_1_alg».proof.Proof.Gen.ReferenceIdeal.Read
import proofs.«105669_j10969346474266_1_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two projections -/

/-- The key projection: at batch `b`, position `s`, feature `k` the reference's transposed hidden states contracted with
    row `k` of the weight over the hidden axis, plus the bias's entry `k`, is `proj` there. -/
theorem v4_eq (x0 : (⟨S1024x32x1024, .f32⟩ : BufTy).Contents (Elt Ideal)) (x3 : (⟨S1024x1024, .f32⟩ : BufTy).Contents (Elt Ideal))
    (x4 : (⟨S1024, .f32⟩ : BufTy).Contents (Elt Ideal)) :
    val_main_v4 (F := Ideal) x0 x3 x4 = Cert.Attn.projArr x0 x3 x4 := by
  funext i
  obtain ⟨b, s, k, rfl⟩ : ∃ (b : Fin 32) (s k : Fin 1024), i = ix3 b s k := ⟨i 0, i 1, i 2, eq_ix3 i⟩
  rw [val_main_v4_apply, val_main_v1_apply, val_main_v3_apply, val_main_v2_apply, Cert.Attn.projArr_ix3, Ideal.addf_def]
  unfold Cert.Attn.proj
  have eb : idx_main_v2 (idx_main_v3 (ix3 b s k)) = ix1 k :=
    funext fun a => Fin.ext (by match a with | ⟨0, _⟩ => rfl)
  rw [eb]
  refine congrArg (· + x4 (ix1 k)) (Finset.sum_congr rfl fun h _ => ?_)
  have el : idx_main_v0 (lidx_main_v1 (ix3 b s k) h) = ix3 s b h :=
    funext fun a => Fin.ext (by match a with | ⟨0, _⟩ => rfl | ⟨1, _⟩ => rfl | ⟨2, _⟩ => rfl)
  have er : ridx_main_v1 (ix3 b s k) h = ix2 k h :=
    funext fun a => Fin.ext (by match a with | ⟨0, _⟩ => rfl | ⟨1, _⟩ => rfl)
  rw [val_main_v0_apply, el, er]

/-- The value projection: the same contraction with the second weight and bias. -/
theorem v8_eq (x0 : (⟨S1024x32x1024, .f32⟩ : BufTy).Contents (Elt Ideal)) (x5 : (⟨S1024x1024, .f32⟩ : BufTy).Contents (Elt Ideal))
    (x6 : (⟨S1024, .f32⟩ : BufTy).Contents (Elt Ideal)) :
    val_main_v8 (F := Ideal) x0 x5 x6 = Cert.Attn.projArr x0 x5 x6 := by
  funext i
  obtain ⟨b, s, k, rfl⟩ : ∃ (b : Fin 32) (s k : Fin 1024), i = ix3 b s k := ⟨i 0, i 1, i 2, eq_ix3 i⟩
  rw [val_main_v8_apply, val_main_v5_apply, val_main_v7_apply, val_main_v6_apply, Cert.Attn.projArr_ix3, Ideal.addf_def]
  unfold Cert.Attn.proj
  have eb : idx_main_v6 (idx_main_v7 (ix3 b s k)) = ix1 k :=
    funext fun a => Fin.ext (by match a with | ⟨0, _⟩ => rfl)
  rw [eb]
  refine congrArg (· + x6 (ix1 k)) (Finset.sum_congr rfl fun h _ => ?_)
  have el : idx_main_v0 (lidx_main_v5 (ix3 b s k) h) = ix3 s b h :=
    funext fun a => Fin.ext (by match a with | ⟨0, _⟩ => rfl | ⟨1, _⟩ => rfl | ⟨2, _⟩ => rfl)
  have er : ridx_main_v5 (ix3 b s k) h = ix2 k h :=
    funext fun a => Fin.ext (by match a with | ⟨0, _⟩ => rfl | ⟨1, _⟩ => rfl)
  rw [val_main_v0_apply, el, er]

/-! ## The softmax of a row of scores -/

section Row

variable (x0 : (⟨S1024x32x1024, .f32⟩ : BufTy).Contents (Elt Ideal)) (x1 : (⟨S32x512x1024, .f32⟩ : BufTy).Contents (Elt Ideal))
  (x3 : (⟨S1024x1024, .f32⟩ : BufTy).Contents (Elt Ideal)) (x4 : (⟨S1024, .f32⟩ : BufTy).Contents (Elt Ideal))

/-- The reference's scores of query `t` of batch `b` against the 1024 keys, as a row. -/
def row (b : Fin 32) (t : Fin 512) : Fin 1024 → EReal := fun s => val_main_v9 (F := Ideal) x0 x1 x3 x4 (ix3 b t s)

/-- The reference's score at (b, t, s) is entry `s` of that row. -/
theorem v9_ix3 (b : Fin 32) (t : Fin 512) (s : Fin 1024) :
    val_main_v9 (F := Ideal) x0 x1 x3 x4 (ix3 b t s) = row x0 x1 x3 x4 b t s := rfl

/-- The row is the score row of the formula: query `t` against key `s`, summed over the 1024 features. -/
theorem row_eq (b : Fin 32) (t : Fin 512) :
    row x0 x1 x3 x4 b t = Cert.Attn.score x1 (val_main_v4 (F := Ideal) x0 x3 x4) b t := by
  funext s
  unfold row Cert.Attn.score
  rw [val_main_v9_apply]
  refine Finset.sum_congr rfl fun h _ => ?_
  have el : lidx_main_v9 (ix3 b t s) h = ix3 b t h :=
    funext fun a => Fin.ext (by match a with | ⟨0, _⟩ => rfl | ⟨1, _⟩ => rfl | ⟨2, _⟩ => rfl)
  have er : ridx_main_v9 (ix3 b t s) h = ix3 b s h :=
    funext fun a => Fin.ext (by match a with | ⟨0, _⟩ => rfl | ⟨1, _⟩ => rfl | ⟨2, _⟩ => rfl)
  rw [el, er]

/-- The reduced index (b, t) with the key coordinate `k` put back on the last axis is (b, t, k). -/
theorem lift_ix3 (h : S32x512x1024.Reduces [2] S32x512) (b : Fin 32) (t : Fin 512) (k : Fin (S32x512x1024.size 2)) :
    h.lift (ix2 b t) k = ix3 b t (⟨k.val, k.isLt⟩ : Fin 1024) := by
  funext c; apply Fin.ext
  fin_cases c <;> rfl

/-- The reduction with a maximum body over the key axis, from −∞: at (b, t) it is the fold of `max` from −∞ over the row. -/
theorem v10_ix2 (b : Fin 32) (t : Fin 512) :
    val_main_v10 (F := Ideal) x0 x1 x3 x4 (ix2 b t)
      = (Finset.univ : Finset (Fin 1024)).fold max Cert.Attn.negInf (row x0 x1 x3 x4 b t) := by
  unfold val_main_v10 row
  generalize val_main_v9 (F := Ideal) x0 x1 x3 x4 = y
  have h : S32x512x1024.Reduces [2] S32x512 := by decide
  refine (Host.reduce_eq_fold_single (α := Ideal .f32) (s := S32x512x1024) (t := S32x512) (a := 2) (u := S_)
    (FloatOps.maximumf (F := Ideal) (φ := .f32)) y (val_main_cst (F := Ideal)) reducesTo_S32x512x1024_S32x512_d2 h h_S_ (ix2 b t)).trans ?_
  have hf : (y ∘ h.lift (ix2 b t)) = fun k : Fin 1024 => y (ix3 b t k) := funext fun k => congrArg y (lift_ix3 h b t k)
  exact congrArg (fun f => Finset.fold max (Ideal.ofBits .f32 0xFF800000#32) f (Finset.univ : Finset (Fin 1024))) hf

/-- The maximum taken once more against −∞: the row's maximum as the formula writes it. -/
theorem v12_ix2 (b : Fin 32) (t : Fin 512) :
    val_main_v12 (F := Ideal) x0 x1 x3 x4 (ix2 b t) = Cert.Attn.rowMax (row x0 x1 x3 x4 b t) := by
  rw [val_main_v12_apply, val_main_v11_apply, val_main_cst_0_apply, v10_ix2, Ideal.maximumf_def, Ideal.ofBits_def]
  rfl

/-- The exponential of a score less its row's maximum. -/
theorem v16_ix3 (b : Fin 32) (t : Fin 512) (s : Fin 1024) :
    val_main_v16 (F := Ideal) x0 x1 x3 x4 (ix3 b t s) = Cert.Attn.rowExp (row x0 x1 x3 x4 b t) s := by
  have e : idx_main_v13 (idx_main_v14 (ix3 b t s)) = ix2 b t :=
    funext fun a => Fin.ext (by match a with | ⟨0, _⟩ => rfl | ⟨1, _⟩ => rfl)
  rw [val_main_v16_apply, val_main_v15_apply, val_main_v14_apply, val_main_v13_apply, e, v12_ix2, v9_ix3,
    Ideal.hostUnary_exp_def, Ideal.subf_def]
  rfl

/-- The sum of the row's exponentials: the reference adds them to the initial value 0. -/
theorem v17_ix2 (b : Fin 32) (t : Fin 512) :
    val_main_v17 (F := Ideal) x0 x1 x3 x4 (ix2 b t) = ∑ s : Fin 1024, Cert.Attn.rowExp (row x0 x1 x3 x4 b t) s := by
  rw [val_main_v17_apply, val_main_cst_1_apply, Ideal.ofBits_def, Ideal.ofBits_zero_f32, zero_add]
  refine Finset.sum_congr rfl fun s _ => ?_
  have e : idx_main_v17 (ix2 b t) s = ix3 b t s :=
    funext fun a => Fin.ext (by match a with | ⟨0, _⟩ => rfl | ⟨1, _⟩ => rfl | ⟨2, _⟩ => rfl)
  rw [e, v16_ix3]

/-- The softmax weight of key `s`: its exponential over the row's sum of exponentials. -/
theorem v20_ix3 (b : Fin 32) (t : Fin 512) (s : Fin 1024) :
    val_main_v20 (F := Ideal) x0 x1 x3 x4 (ix3 b t s) = Cert.Attn.rowAttn (row x0 x1 x3 x4 b t) s := by
  have e : idx_main_v18 (idx_main_v19 (ix3 b t s)) = ix2 b t :=
    funext fun a => Fin.ext (by match a with | ⟨0, _⟩ => rfl | ⟨1, _⟩ => rfl)
  rw [val_main_v20_apply, val_main_v19_apply, val_main_v18_apply, e, v17_ix2, v16_ix3, Ideal.hostDivf_def]
  rfl

end Row

/-! ## The weighted sum of the values, the logistic function, and the whole result -/

section Out

variable (x0 : (⟨S1024x32x1024, .f32⟩ : BufTy).Contents (Elt Ideal)) (x1 : (⟨S32x512x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The softmax weights of query `t` against the value projection, summed over the 1024 keys, at feature `h`. -/
theorem v21_ix3 (b : Fin 32) (t : Fin 512) (h : Fin 1024) :
    val_main_v21 (F := Ideal) x0 x1 x3 x4 x5 x6 (ix3 b t h)
      = ∑ s : Fin 1024, Cert.Attn.rowAttn (row x0 x1 x3 x4 b t) s * val_main_v8 (F := Ideal) x0 x5 x6 (ix3 b s h) := by
  rw [val_main_v21_apply]
  refine Finset.sum_congr rfl fun s _ => ?_
  have el : lidx_main_v21 (ix3 b t h) s = ix3 b t s :=
    funext fun a => Fin.ext (by match a with | ⟨0, _⟩ => rfl | ⟨1, _⟩ => rfl | ⟨2, _⟩ => rfl)
  have er : ridx_main_v21 (ix3 b t h) s = ix3 b s h :=
    funext fun a => Fin.ext (by match a with | ⟨0, _⟩ => rfl | ⟨1, _⟩ => rfl | ⟨2, _⟩ => rfl)
  rw [el, er, v20_ix3]

/-- The last four operations, 1 / (1 + exp (−y)) with both constants the pattern of 1, are the logistic function of y. -/
theorem v27_ix3 (b : Fin 32) (t : Fin 512) (h : Fin 1024) :
    val_main_v27 (F := Ideal) x0 x1 x3 x4 x5 x6 (ix3 b t h)
      = Ideal.logistic (val_main_v21 (F := Ideal) x0 x1 x3 x4 x5 x6 (ix3 b t h)) := by
  rw [val_main_v27_apply, val_main_v26_apply, val_main_cst_3_apply, val_main_v25_apply, val_main_v24_apply,
    val_main_cst_2_apply, val_main_v23_apply, val_main_v22_apply, Ideal.hostDivf_def, Ideal.addf_def,
    Ideal.hostUnary_exp_def, Ideal.hostNegf_def, Ideal.negf_def, Ideal.ofBits_def, Cert.Attn.ofBits_one_f32]
  rfl

end Out

/-- The reference program's result is the attention formula: at batch `b`, query `t`, feature `h` the logistic function of the
    softmax of the scores of `t` against the projected keys of batch `b`, weighting the projected values at feature `h`. -/
theorem ref_eq (x0 : (⟨S1024x32x1024, .f32⟩ : BufTy).Contents (Elt Ideal)) (x1 : (⟨S32x512x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v27 (F := Ideal) x0 x1 x3 x4 x5 x6 = Cert.Attn.result x0 x1 x3 x4 x5 x6 := by
  funext i
  obtain ⟨b, t, h, rfl⟩ : ∃ (b : Fin 32) (t : Fin 512) (h : Fin 1024), i = ix3 b t h := ⟨i 0, i 1, i 2, eq_ix3 i⟩
  rw [v27_ix3, v21_ix3, row_eq, v8_eq, v4_eq]
  unfold Cert.Attn.result
  rw [Cert.Attn.outArr_ix3]
  unfold Cert.Attn.outAt
  rfl

end Cert.ReferenceIdeal.RefValue

end
-- ==== Proof.lean ====
/-
  The certificate: a two-kernel attention program against its jnp reference, equal on the extended reals.

  Both programs project the hidden states to keys and values (k = hidden · Wkᵀ + bk, v = hidden · Wvᵀ + bv, batch-major),
  score every query against the keys of its batch, turn each row of scores into softmax weights (row maximum from −∞,
  exponential of the difference, division by the row's sum), average the values with the weights and apply the logistic
  function. The kernel program computes both projections in one pass over the joined weights and the attention one batch per
  grid point; the reference spells the same sums as batched contractions and the logistic function as 1 / (1 + e⁻ˣ). Read
  one element at a time both results are `Cert.Attn.result` of the argument arrays (Proof/Spec.lean): the sums are the same
  finite sums with the same factors in the same order, the reductions the same folds, and every pointwise operation the same
  function of the extended reals, so no appeal to finiteness is made. The idealization rewrote nothing, so `preserves` is
  trivial; the three frames are the generated ones (the reference's is its run with the result dropped).
-/
import proofs.«105669_j10969346474266_1_alg».proof.Defs
import proofs.«105669_j10969346474266_1_alg».proof.Proof.Gen.Kernel
import proofs.«105669_j10969346474266_1_alg».proof.Proof.Gen.Kernel.Skeleton
import proofs.«105669_j10969346474266_1_alg».proof.Proof.Gen.Kernel.Launch
import proofs.«105669_j10969346474266_1_alg».proof.Proof.Gen.Kernel.Points
import proofs.«105669_j10969346474266_1_alg».proof.Proof.Gen.Kernel.Frame
import proofs.«105669_j10969346474266_1_alg».proof.Proof.Gen.KernelIdeal
import proofs.«105669_j10969346474266_1_alg».proof.Proof.Gen.KernelIdeal.Skeleton
import proofs.«105669_j10969346474266_1_alg».proof.Proof.Gen.KernelIdeal.Launch
import proofs.«105669_j10969346474266_1_alg».proof.Proof.Gen.KernelIdeal.Points
import proofs.«105669_j10969346474266_1_alg».proof.Proof.Gen.KernelIdeal.Frame
import proofs.«105669_j10969346474266_1_alg».proof.Proof.Gen.ReferenceIdeal
import proofs.«105669_j10969346474266_1_alg».proof.Proof.Gen.Pre_finite_inputs
import proofs.«105669_j10969346474266_1_alg».proof.Proof.Gen.ReferenceIdeal.Run
import proofs.«105669_j10969346474266_1_alg».proof.Proof.Gen.ReferenceIdeal.Read
import proofs.«105669_j10969346474266_1_alg».proof.Proof.KernelValue
import proofs.«105669_j10969346474266_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result at `Cert.Attn.result` of the
    argument arrays: the kernel program by the value of its two regions, the reference by its run read one operation at
    a time. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, e6⟩ := hagree c
  refine (Cert.ReferenceIdeal.Read.val_main_v27_eq _ _ _ _ _ _).trans ?_
  refine (Cert.ReferenceIdeal.RefValue.ref_eq _ _ _ _ _ _).trans ?_
  rw [e0, e1, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
